-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x224x224 : Shape := ⟨4, ![32, 128, 224, 224]⟩
abbrev S32x1x224x224 : Shape := ⟨4, ![32, 1, 224, 224]⟩
abbrev S_ : Shape := ⟨0, ![]⟩

class Facts : Prop where
  bcast_S_S32x128x224x224 : S_.BroadcastsInDim S32x128x224x224 (![] : Fin 0 → Fin S32x128x224x224.rank)
  reducesTo_S32x128x224x224_S_d0_1_2_3 : S32x128x224x224.ReducesTo [0, 1, 2, 3] S_
  h_S_ : 0 < S_.numel
  bcast_S_S32x1x224x224 : S_.BroadcastsInDim S32x1x224x224 (![] : Fin 0 → Fin S32x1x224x224.rank)
  reducesTo_S32x1x224x224_S_d0_1_2_3 : S32x1x224x224.ReducesTo [0, 1, 2, 3] S_

variable [Facts]

def fn {F : FTy → Type} [FloatOps F] (main_arg0 : FVec F S32x128x224x224 .f32) (main_arg1 : FVec F S32x1x224x224 .f32) : IVec S_ 1 :=
  let main_v0 : FVec F S32x128x224x224 .f32 := Host.absf main_arg0
  let main_cst : FVec F S_ .f32 := constant S_ .f32 0x7F800000#32
  let main_v1 : FVec F S32x128x224x224 .f32 := broadcastInDim S32x128x224x224 ![] bcast_S_S32x128x224x224 main_cst
  let main_v2 : IVec S32x128x224x224 1 := cmpf .olt main_v0 main_v1
  let main_c : IVec S_ 1 := constantI S_ 1 1#1
  let main_v3 : IVec S_ 1 := (fun x v => Host.reduce IntOp.andi x v reducesTo_S32x128x224x224_S_d0_1_2_3 h_S_) main_v2 main_c
  let main_v4 : FVec F S32x1x224x224 .f32 := Host.absf main_arg1
  let main_cst_0 : FVec F S_ .f32 := constant S_ .f32 0x7F800000#32
  let main_v5 : FVec F S32x1x224x224 .f32 := broadcastInDim S32x1x224x224 ![] bcast_S_S32x1x224x224 main_cst_0
  let main_v6 : IVec S32x1x224x224 1 := cmpf .olt main_v4 main_v5
  let main_c_1 : IVec S_ 1 := constantI S_ 1 1#1
  let main_v7 : IVec S_ 1 := (fun x v => Host.reduce IntOp.andi x v reducesTo_S32x1x224x224_S_d0_1_2_3 h_S_) main_v6 main_c_1
  let main_v8 : IVec S_ 1 := andi main_v3 main_v7
  main_v8
-- ==== Kernel.lean ====
abbrev S32x128x224x224 : Shape := ⟨4, ![32, 128, 224, 224]⟩
abbrev S32x1x224x224 : Shape := ⟨4, ![32, 1, 224, 224]⟩
abbrev S32x128x50176 : Shape := ⟨3, ![32, 128, 50176]⟩
abbrev S32x1x50176 : Shape := ⟨3, ![32, 1, 50176]⟩
abbrev S1x32x50176 : Shape := ⟨3, ![1, 32, 50176]⟩
abbrev S1x1x50176 : Shape := ⟨3, ![1, 1, 50176]⟩

abbrev nBuf : Space → Nat
  | .hbm => 6
  | .vmem => 6
  | .smem => 0
  | _ => 0

abbrev bufTy : (tb : Table) → Fin (tcTables nBuf tb) → BufTy
  | .hbm, ⟨0, _⟩ => ⟨S32x128x224x224, .f32⟩
  | .hbm, ⟨1, _⟩ => ⟨S32x1x224x224, .f32⟩
  | .hbm, ⟨2, _⟩ => ⟨S32x128x50176, .f32⟩
  | .hbm, ⟨3, _⟩ => ⟨S32x1x50176, .f32⟩
  | .hbm, ⟨4, _⟩ => ⟨S32x128x50176, .f32⟩
  | .hbm, ⟨5, _⟩ => ⟨S32x128x224x224, .f32⟩
  | .local _ .vmem, ⟨0, _⟩ => ⟨S1x32x50176, .f32⟩
  | .local _ .vmem, ⟨1, _⟩ => ⟨S1x32x50176, .f32⟩
  | .local _ .vmem, ⟨2, _⟩ => ⟨S1x1x50176, .f32⟩
  | .local _ .vmem, ⟨3, _⟩ => ⟨S1x1x50176, .f32⟩
  | .local _ .vmem, ⟨4, _⟩ => ⟨S1x32x50176, .f32⟩
  | .local _ .vmem, ⟨5, _⟩ => ⟨S1x32x50176, .f32⟩
  | _, _ => ⟨S32x128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x50176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x50176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x50176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S32x128x224x224_S32x128x50176 : S32x128x224x224.ShapeCasts S32x128x50176
  shapeCasts_S32x1x224x224_S32x1x50176 : S32x1x224x224.ShapeCasts S32x1x50176
  inb_S1x32x50176_S1x32x50176_0_0_0 : ∀ a, (![0, 0, 0] : Fin 3 → Nat) a + S1x32x50176.size a ≤ S1x32x50176.size a
  h_S1x32x50176 : 0 < S1x32x50176.numel
  shapeCasts_S1x32x50176_S1x32x50176 : S1x32x50176.ShapeCasts S1x32x50176
  inb_S1x1x50176_S1x1x50176_0_0_0 : ∀ a, (![0, 0, 0] : Fin 3 → Nat) a + S1x1x50176.size a ≤ S1x1x50176.size a
  h_S1x1x50176 : 0 < S1x1x50176.numel
  shapeCasts_S1x1x50176_S1x1x50176 : S1x1x50176.ShapeCasts S1x1x50176
  broadcasts_S1x1x50176_S1x32x50176 : S1x1x50176.Broadcasts S1x32x50176
  shapeCasts_S32x128x50176_S32x128x224x224 : S32x128x50176.ShapeCasts S32x128x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x50176.size a ≤ S32x128x50176.size a
  hwx0_0 : ∀ i : grid0.Coords, EltTy.bits .f32 = 32 ∨ (Rect.block (s := S32x128x50176) S1x32x50176.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x50176.size a ≤ S32x1x50176.size a
  hwx0_1 : ∀ i : grid0.Coords, EltTy.bits .f32 = 32 ∨ (Rect.block (s := S32x1x50176) S1x1x50176.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x50176.size a ≤ S32x128x50176.size a
  hwx0_2 : ∀ i : grid0.Coords, EltTy.bits .f32 = 32 ∨ (Rect.block (s := S32x128x50176) S1x32x50176.size (cc0_transform_2 i) (hinb0_2 i)).WholeWords (EltTy.packing .f32)

variable [Facts₀]

abbrev win0_0 : Pipeline.Window sig grid0 :=
  Pipeline.Window.ofSpec (Memref.whole main_v0) S1x32x50176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x50176.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x50176.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x224x224 : Shape := ⟨4, ![32, 128, 224, 224]⟩
abbrev S32x1x224x224 : Shape := ⟨4, ![32, 1, 224, 224]⟩

abbrev nBuf : Space → Nat
  | .hbm => 4
  | .vmem => 0
  | .smem => 0
  | _ => 0

abbrev bufTy : (tb : Table) → Fin (tcTables nBuf tb) → BufTy
  | .hbm, ⟨0, _⟩ => ⟨S32x128x224x224, .f32⟩
  | .hbm, ⟨1, _⟩ => ⟨S32x1x224x224, .f32⟩
  | .hbm, ⟨2, _⟩ => ⟨S32x128x224x224, .f32⟩
  | .hbm, ⟨3, _⟩ => ⟨S32x128x224x224, .f32⟩
  | _, _ => ⟨S32x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S32x1x224x224_S32x128x224x224_0_1_2_3 : S32x1x224x224.BroadcastsInDim S32x128x224x224 (![0, 1, 2, 3] : Fin 4 → Fin S32x128x224x224.rank)

variable [Facts₀]

class Facts : Prop extends Facts₀ where

variable [Facts]
-- ==== Proof.MaskSpec.lean ====
/-
  The mathematics of this certificate, with no program in sight.

  A feature map `f[b, ch, h, w]` over 32 × 128 × 224 × 224 is multiplied by a keep-mask `k[b, 0, h, w]` that has a
  single channel shared by all 128 channels of its sample: the result at `(b, ch, h, w)` is `f[b, ch, h, w] · k[b, 0, h, w]`
  (`masked`). One side computes exactly this, by broadcasting the mask along the channel axis. The other side first
  lays every 224 × 224 image out as one row of 50176 = 224 · 224 lanes, multiplies there (`maskedFlat`: the entry at
  `(b, ch, l)` is `f'[b, ch, l] · k'[b, 0, l]`), 32 channels of one sample at a time (`block_product`), and lays the
  product out as images again. A change of layout keeps the row-major position of every entry, and the lane of pixel
  `(h, w)` is `h · 224 + w` whatever the channel, so the two are the same function of `f` and `k` (`unflatten`):
  no law of arithmetic is used beyond that equality of positions, and none that would ask the entries to be finite.
-/
import Idealize.ShloMosaic.PureOps
import Idealize.ShloMosaic.Lib.ValueIdx
import Idealize.ShloMosaic.Lib.Pipeline.Value

noncomputable section

namespace Cert.MaskSpec

open Idealize.ShloMosaic

variable {F : FTy → Type} [FloatOps F]

/-- The feature map and the result: sample, channel, row, column. -/
abbrev SFeat : Shape := ⟨4, ![32, 128, 224, 224]⟩
/-- The mask: one channel. -/
abbrev SMask : Shape := ⟨4, ![32, 1, 224, 224]⟩
/-- The same two arrays with each image as one row of lanes. -/
abbrev SFeatFlat : Shape := ⟨3, ![32, 128, 50176]⟩
abbrev SMaskFlat : Shape := ⟨3, ![32, 1, 50176]⟩
/-- What is multiplied at a time: 32 channels of one sample, and that sample's mask. -/
abbrev SFeatBlk : Shape := ⟨3, ![1, 32, 50176]⟩
abbrev SMaskBlk : Shape := ⟨3, ![1, 1, 50176]⟩

/-! ## The result, index by index -/

/-- The mask entry a feature entry meets: the same sample, row and column, in the mask's only channel. -/
def maskIdx (i : SFeat.Idx) : SMask.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩

/-- THE RESULT: every feature entry times the mask entry of its sample and pixel. -/
def masked (f : FVec F SFeat .f32) (k : FVec F SMask .f32) : FVec F SFeat .f32 :=
  fun i => FloatOps.mulf (f i) (k (maskIdx i))

/-! ## The same product over lanes -/

/-- Over lanes: the same sample and lane, the only channel. -/
def maskFlatIdx (j : SFeatFlat.Idx) : SMaskFlat.Idx := fun a => match a with
  | ⟨0, _⟩ => ⟨(j 0).val, (j 0).isLt⟩
  | ⟨1, _⟩ => ⟨0, Nat.one_pos⟩
  | ⟨2, _⟩ => ⟨(j 2).val, (j 2).isLt⟩

/-- The product of the two flattened arrays. -/
def maskedFlat (f : FVec F SFeatFlat .f32) (k : FVec F SMaskFlat .f32) : FVec F SFeatFlat .f32 :=
  fun j => FloatOps.mulf (f j) (k (maskFlatIdx j))

/-- Inside one block of 32 channels: the mask's row at the same lane. -/
def maskBlkIdx (y : SFeatBlk.Idx) : SMaskBlk.Idx := fun a => match a with
  | ⟨0, _⟩ => ⟨0, Nat.one_pos⟩
  | ⟨1, _⟩ => ⟨0, Nat.one_pos⟩
  | ⟨2, _⟩ => ⟨(y 2).val, (y 2).isLt⟩

/-- One block's product: the feature block, cast to its own shape, times the mask's row, cast to its own shape and
    repeated over the block's 32 channels, is entry by entry the feature entry times the mask's entry at its lane. -/
theorem block_product (x0 : FVec F SFeatBlk .f32) (x1 : FVec F SMaskBlk .f32)
    (h0 : SFeatBlk.ShapeCasts SFeatBlk) (h1 : SMaskBlk.ShapeCasts SMaskBlk) (hb : SMaskBlk.Broadcasts SFeatBlk) :
    mulf (shapeCast SFeatBlk x0 h0) (broadcastTo SFeatBlk (shapeCast SMaskBlk x1 h1) hb)
      = fun y => FloatOps.mulf (x0 y) (x1 (maskBlkIdx y)) := by
  rw [shapeCast_self, shapeCast_self]
  funext y
  show FloatOps.mulf (x0 y) (broadcastTo SFeatBlk x1 hb y) = _
  rw [broadcastTo_apply x1 hb y (maskBlkIdx y) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show (y 2).val = if (50176 : Nat) = 1 then 0 else (y 2).val; rw [if_neg (by decide)])]

/-! ## Images as rows of lanes: positions agree -/

/-- Pixel `(h, w)` of an image is lane `h · 224 + w` of its row. -/
def flatIdx (i : SFeat.Idx) : SFeatFlat.Idx := fun a => match a with
  | ⟨0, _⟩ => ⟨(i 0).val, (i 0).isLt⟩
  | ⟨1, _⟩ => ⟨(i 1).val, (i 1).isLt⟩
  | ⟨2, _⟩ => ⟨(i 2).val * 224 + (i 3).val, by
      have h2 : (i 2).val < 224 := (i 2).isLt
      have h3 : (i 3).val < 224 := (i 3).isLt
      show (i 2).val * 224 + (i 3).val < 50176
      omega⟩

/-- A feature entry and its lane have the same row-major position. -/
theorem pos_flat (i : SFeat.Idx) : (SFeatFlat.rowMajor (flatIdx i)).val = (SFeat.rowMajor i).val := by
  rw [Shape.rowMajor_val_three, Shape.rowMajor_val_four]
  show ((i 0).val * 128 + (i 1).val) * 50176 + ((i 2).val * 224 + (i 3).val)
    = (((i 0).val * 128 + (i 1).val) * 224 + (i 2).val) * 224 + (i 3).val
  omega

/-- So have the mask entry it meets and that entry's lane. -/
theorem pos_mask (i : SFeat.Idx) :
    (SMask.rowMajor (maskIdx i)).val = (SMaskFlat.rowMajor (maskFlatIdx (flatIdx i))).val := by
  rw [Shape.rowMajor_val_three, Shape.rowMajor_val_four]
  show (((i 0).val * 1 + 0) * 224 + (i 2).val) * 224 + (i 3).val
    = ((i 0).val * 1 + 0) * 50176 + ((i 2).val * 224 + (i 3).val)
  omega

/-- THE LAW: flattening both arrays, multiplying over lanes and laying the product out as images again is the masked
    product — each of the three changes of layout reads the entry at the same row-major position. -/
theorem unflatten (f : FVec F SFeat .f32) (k : FVec F SMask .f32)
    (hf : SFeat.ShapeCasts SFeatFlat) (hk : SMask.ShapeCasts SMaskFlat) (ho : SFeatFlat.ShapeCasts SFeat) :
    shapeCast SFeat (maskedFlat (shapeCast SFeatFlat f hf) (shapeCast SMaskFlat k hk)) ho = masked f k := by
  funext i
  rw [shapeCast_apply _ ho i (flatIdx i) (pos_flat i)]
  show FloatOps.mulf (shapeCast SFeatFlat f hf (flatIdx i)) (shapeCast SMaskFlat k hk (maskFlatIdx (flatIdx i)))
    = FloatOps.mulf (f i) (k (maskIdx i))
  rw [shapeCast_apply f hf (flatIdx i) i (pos_flat i).symm,
    shapeCast_apply k hk (maskFlatIdx (flatIdx i)) (maskIdx i) (pos_mask i)]

end Cert.MaskSpec

end
-- ==== Proof.KernelValue.lean ====
/-
  What the kernel's program leaves in its result, read off its frame run.

  The program lays the feature map and the mask out with each image as one row of 50176 lanes, runs one region over a
  grid of 32 × 4 points, and lays the region's array out as images again. At point `(b, q)` the region fetches channels
  `32·q … 32·q + 31` of sample `b` of the flattened feature map and the one mask row of sample `b`, multiplies every
  channel by that row, and writes the product back as the same block of the output array. So what a point writes back
  is a block of ONE function of the two flattened arrays — their product over lanes (`flushed_eq`) —, the 128 blocks
  tile the output array (`cover`), and the array after the region is that product (`region_array`). The host lines around
  the region are changes of layout (`feat_flat`, `mask_flat`, `result_unflat`), which the specification's law removes:
  the program's result is the masked product of its two arguments (`run`).
-/
import proofs.«139102_j88295937671575_2_alg».proof.Proof.Gen.KernelIdeal.Frame
import proofs.«139102_j88295937671575_2_alg».proof.Proof.MaskSpec
import Idealize.ShloMosaic.Lib.Pipeline.Value
import Idealize.ShloMosaic.Lib.StableHlo.Run

set_option maxRecDepth 16384

noncomputable section

namespace Cert.KernelIdeal.MaskValue

open Idealize.ShloMosaic Idealize.ShloMosaic.TcCoe Idealize.SL.Sem
open Cert.KernelIdeal Cert.KernelIdeal.Gen Cert.MaskSpec
open Idealize.ShloMosaic.Pipeline (Dat)

variable {F : FTy → Type} [FloatOps F]
variable (m : (ℓ : Loc nD τ sig) → Buf (Elt F) ℓ) (ρ : Dev nD → PrngReg)

/-! ## One point's block -/

theorem offsets_zero : (![0, 0, 0] : Fin 3 → Nat) = fun _ => 0 := funext fun a => by fin_cases a <;> rfl

/-- What the body stores: every channel of the feature block times the mask's row at the same lane. -/
theorem pay_eq (x0 : Vec F S1x32x50176 .f32) (x1 : Vec F S1x1x50176 .f32) :
    k0_pay1 x0 x1 = fun y => FloatOps.mulf (x0 y) (x1 (maskBlkIdx y)) := by
  unfold k0_pay1
  exact block_product x0 x1 _ _ _

/-- Where the three windows' blocks sit at a point, decided over the grid's 128 points: the feature block and the
    output block are the same block (sample `b`, channel block `q`, all lanes); the mask's block is sample `b`'s only
    row. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every sample and every block of 32 channels is some point's. -/
theorem idx_onto : ∀ (b : Fin 32) (q : Fin 4), ∃ t : Fin cfg0.N, win0_2.index t = ![b.val, q.val, 0] :=
  (by decide +kernel : ∀ (b : Fin 32) (q : Fin 4), ∃ t : Fin grid0.N, win0_2.index t = ![b.val, q.val, 0])

/-- WHAT POINT `t` WRITES BACK is block `t` of the product over lanes of the two flattened arrays, as the region
    finds them. -/
theorem flushed_eq (c : Dev nD) (t : Fin cfg0.N) :
    (dats m 0 c).flushed 2 t
      = ((cfg0.win 2).blk t).view.read (Elt F) (maskedFlat (V m c main_v0) (V m c main_v1)) := by
  show (cfg0.win 2).cut (grid0.coords t) ((dats m 0 c).after 2 t) = _
  rw [after0_2]
  unfold out0_2
  rw [View.canon_unit_zero offsets_zero]
  simp only [View.ld_unit_zero (S := S1x32x50176) offsets_zero, View.ld_unit_zero (S := S1x1x50176) offsets_zero]
  rw [pay_eq]
  obtain ⟨e0, e1, e2, e3, e4, e5, e6⟩ := idx_facts t
  funext y
  show FloatOps.mulf (V m c main_v0 (((cfg0.win 0).blk t).view.emb y))
      (V m c main_v1 (((cfg0.win 1).blk t).view.emb (maskBlkIdx y)))
    = FloatOps.mulf (V m c main_v0 (((cfg0.win 2).blk t).view.emb y))
      (V m c main_v1 (maskFlatIdx (((cfg0.win 2).blk t).view.emb y)))
  have hy0 : (y 0).val < 1 := (y 0).isLt
  have h0 : ((cfg0.win 0).blk t).view.emb y = ((cfg0.win 2).blk t).view.emb y := by
    funext a; apply Fin.ext
    match a with
    | ⟨0, _⟩ => show win0_0.index t (0 : Fin 3) * 1 + 1 * (y 0).val = win0_2.index t (0 : Fin 3) * 1 + 1 * (y 0).val; omega
    | ⟨1, _⟩ => show win0_0.index t (1 : Fin 3) * 32 + 1 * (y 1).val = win0_2.index t (1 : Fin 3) * 32 + 1 * (y 1).val; omega
    | ⟨2, _⟩ => show win0_0.index t (2 : Fin 3) * 50176 + 1 * (y 2).val = win0_2.index t (2 : Fin 3) * 50176 + 1 * (y 2).val; omega
  have h1 : ((cfg0.win 1).blk t).view.emb (maskBlkIdx y) = maskFlatIdx (((cfg0.win 2).blk t).view.emb y) := by
    funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 1 + 1 * 0 = 0; omega
    | ⟨2, _⟩ => show win0_1.index t (2 : Fin 3) * 50176 + 1 * (y 2).val = win0_2.index t (2 : Fin 3) * 50176 + 1 * (y 2).val; omega
  rw [h0, h1]

/-! ## The blocks tile the output array -/

/-- An index of the output array is in point `t`'s block iff each coordinate is in the block's range on its axis. -/
theorem mem_blk (t : Fin cfg0.N) (i : S32x128x50176.Idx) :
    i ∈ ((cfg0.win 2).blk t).view.set ↔ ∀ a : Fin 3, win0_2.index t a * S1x32x50176.size a ≤ (i a).val
      ∧ (i a).val < win0_2.index t a * S1x32x50176.size a + S1x32x50176.size a := by
  show i ∈ ((View.whole main_v2).slice (win0_2.rect t)).set ↔ _
  rw [View.set_slice_whole, Rect.mem_set_unit]
  exact Iff.rfl

/-- Entry `(b, ch, l)` is written back by the point of sample `b` and channel block `ch / 32`. -/
theorem cover (i : S32x128x50176.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 50176 := (i 2).isLt
  obtain ⟨t, ht⟩ := idx_onto ⟨(i 0).val, hi0⟩ ⟨(i 1).val / 32, by omega⟩
  have q0 : win0_2.index t (0 : Fin 3) = (i 0).val := congrFun ht 0
  have q1 : win0_2.index t (1 : Fin 3) = (i 1).val / 32 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32 ≤ (i 1).val ∧ (i 1).val < win0_2.index t (1 : Fin 3) * 32 + 32; omega
  | ⟨2, _⟩ => show win0_2.index t (2 : Fin 3) * 50176 ≤ (i 2).val ∧ (i 2).val < win0_2.index t (2 : Fin 3) * 50176 + 50176; omega

/-- THE REGION'S ARRAY after the run: the product over lanes of the two flattened arrays. -/
theorem region_array (c : Dev nD) :
    (dats m 0 c).arrAt 2 cfg0.N = maskedFlat (V m c main_v0) (V m c main_v1) :=
  (dats m 0 c).arrAt_eq_of_cover 2 _ (fun t _ => flushed_eq m c t) cover

/-! ## The host lines around the region -/

/-- The region finds the feature map flattened, -/
theorem feat_flat (c : Dev nD) : (V m c main_v0 : S32x128x50176.Idx → Elt F .f32)
    = shapeCast S32x128x50176 (m ((c : Thread nD τ).loc main_arg0)) shapeCasts_S32x128x224x224_S32x128x50176 := by
  show StableHlo.after hostOps0 (fun b => m (c, b)) (Proc.devRef .tc main_v0) = _
  after_results
  rfl

/-- and the mask flattened. -/
theorem mask_flat (c : Dev nD) : (V m c main_v1 : S32x1x50176.Idx → Elt F .f32)
    = shapeCast S32x1x50176 (m ((c : Thread nD τ).loc main_arg1)) shapeCasts_S32x1x224x224_S32x1x50176 := by
  show StableHlo.after hostOps0 (fun b => m (c, b)) (Proc.devRef .tc main_v1) = _
  after_results
  rfl

/-- The line after the region lays the region's array out as images: the program's result is the masked product of
    its arguments. -/
theorem result_unflat (c : Dev nD) :
    Pipeline.afterTail₀ cfgs (dats m) 0 (V0 m) [hostOps1] c main_v3
      = masked (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (region_array m c), feat_flat, mask_flat]
  exact unflatten _ _ _ _ _

/-! ## The run, read -/

/-- Every weakly fair execution of the program terminates with its result at the masked product of its arguments, the
    arguments unchanged. -/
theorem run : θ_run defs (onTc (τ := τ) (main (F := F))) ⟨m, fun _ => 0, ρ⟩ fun r => ∀ c : Dev nD,
      r.2.mem ((c.tc : Thread nD τ).loc main_v3)
        = masked (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_unflat m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.MaskValue

end
-- ==== Proof.RefValue.lean ====
/-
  The reference multiplies the feature map by the mask repeated along the channel axis. Read at an index, the repeated
  mask is the mask at the same sample, row and column in its only channel, so the reference's result is the masked
  product of the specification, entry by entry.
-/
import proofs.«139102_j88295937671575_2_alg».proof.Proof.Gen.ReferenceIdeal.Read
import proofs.«139102_j88295937671575_2_alg».proof.Proof.MaskSpec

noncomputable section

namespace Cert.ReferenceIdeal.RefValue

open Idealize.ShloMosaic Cert.ReferenceIdeal Cert.ReferenceIdeal.Read Cert.MaskSpec

variable {F : FTy → Type} [FloatOps F]

/-- The reference's result is the masked product. -/
theorem result_eq (x0 : FVec F SFeat .f32) (x1 : FVec F SMask .f32) :
    val_main_v1 (F := F) x0 x1 = masked x0 x1 := by
  funext i
  rw [val_main_v1_apply, val_main_v0_apply]
  rfl

end Cert.ReferenceIdeal.RefValue

end
-- ==== Proof.lean ====
/-
  A feature map `f[b, ch, h, w]` over 32 × 128 × 224 × 224 times a one-channel keep-mask `k[b, 0, h, w]` shared by the
  128 channels of each sample: the kernel against its reference, over the extended reals.

  The reference repeats the mask along the channel axis and multiplies. The kernel flattens each 224 × 224 image to a
  row of 50176 lanes, multiplies 32 channels of one sample at a time by that sample's mask row over a 32 × 4 grid,
  and unflattens the product. Both end holding the masked product `f[b, ch, h, w] · k[b, 0, h, w]` (Proof/MaskSpec.lean):
  the kernel because its 128 blocks are blocks of one product over lanes and tile the output, and because a change of
  layout keeps every entry's row-major position (Proof/KernelValue.lean); the reference because the repeated mask read
  at an index is the mask at the same sample and pixel (Proof/RefValue.lean). The two sides perform the same single
  multiplication per entry, so no law of arithmetic is needed and the finiteness of the inputs is never used. The kernel's
  idealization rewrote no operation, so it is the kernel's own text read over the extended reals. The three programs
  terminate without a fault and keep their arguments: the two kernels by their generated frames, the reference by its
  generated run.
-/
import proofs.«139102_j88295937671575_2_alg».proof.Defs
import proofs.«139102_j88295937671575_2_alg».proof.Proof.Gen.Kernel
import proofs.«139102_j88295937671575_2_alg».proof.Proof.Gen.Kernel.Skeleton
import proofs.«139102_j88295937671575_2_alg».proof.Proof.Gen.Kernel.Launch
import proofs.«139102_j88295937671575_2_alg».proof.Proof.Gen.Kernel.Points
import proofs.«139102_j88295937671575_2_alg».proof.Proof.Gen.Kernel.Frame
import proofs.«139102_j88295937671575_2_alg».proof.Proof.Gen.KernelIdeal
import proofs.«139102_j88295937671575_2_alg».proof.Proof.Gen.KernelIdeal.Skeleton
import proofs.«139102_j88295937671575_2_alg».proof.Proof.Gen.KernelIdeal.Launch
import proofs.«139102_j88295937671575_2_alg».proof.Proof.Gen.KernelIdeal.Points
import proofs.«139102_j88295937671575_2_alg».proof.Proof.Gen.KernelIdeal.Frame
import proofs.«139102_j88295937671575_2_alg».proof.Proof.Gen.ReferenceIdeal
import proofs.«139102_j88295937671575_2_alg».proof.Proof.Gen.Pre_finite_inputs
import proofs.«139102_j88295937671575_2_alg».proof.Proof.Gen.ReferenceIdeal.Run
import proofs.«139102_j88295937671575_2_alg».proof.Proof.Gen.ReferenceIdeal.Read
import proofs.«139102_j88295937671575_2_alg».proof.Proof.MaskSpec
import proofs.«139102_j88295937671575_2_alg».proof.Proof.KernelValue
import proofs.«139102_j88295937671575_2_alg».proof.Proof.RefValue
import Idealize.ShloMosaic.Adequacy
import Idealize.ShloMosaic.Init

noncomputable section

namespace Cert.Proof

open Idealize.ShloMosaic Idealize.SL.Sem

/-- The kernel terminates without a fault and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the feature map and the mask, the kernel and the reference both end holding the masked
    product of those two arrays. -/
theorem algebraic : Cert.algebraic_KernelIdeal_ReferenceIdeal := by
  intro m ρ m' ρ' _ hagree
  refine ⟨_, Cert.KernelIdeal.MaskValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v1_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
